-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256 : Shape := ⟨1, ![256]⟩
abbrev S1x256 : Shape := ⟨2, ![1, 256]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S512x256 : Shape := ⟨2, ![512, 256]⟩
abbrev S512x512 : Shape := ⟨2, ![512, 512]⟩
abbrev S512 : Shape := ⟨1, ![512]⟩
abbrev S1 : Shape := ⟨1, ![1]⟩

abbrev nBuf : Space → Nat
  | .hbm => 38
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S256, .f32⟩
  | .hbm, ⟨13, _⟩ => ⟨S1x256, .f32⟩
  | .hbm, ⟨14, _⟩ => ⟨S_, .f32⟩
  | .hbm, ⟨15, _⟩ => ⟨S1x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x256, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S1x8192, .f32⟩
  | .hbm, ⟨29, _⟩ => ⟨S8192x256, .bf16⟩
  | .hbm, ⟨30, _⟩ => ⟨S1x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S8192x256, .bf16⟩
  | .local _ .vmem, ⟨1, _⟩ => ⟨S512x1, .f32⟩
  | .local _ .vmem, ⟨2, _⟩ => ⟨S512x1, .f32⟩
  | .local _ .vmem, ⟨3, _⟩ => ⟨S1x512, .f32⟩
  | .local _ .vmem, ⟨4, _⟩ => ⟨S1x512, .f32⟩
  | .local _ .vmem, ⟨5, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_mult2 (i : grid0.Coords) : BitVec 32 :=
  let arg1 : BitVec 32 := BitVec.ofNat 32 (i 1).val
  let c512_i32_2 : BitVec 32 := 512#32
  let v7 : BitVec 32 := Scalar.muli arg1 c512_i32_2
  v7
def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v9 : Index := Scalar.indexCast v6
  let c0 : Index := 0#32
  ![v9.toNat, 0]
def k0_off2 (i : grid0.Coords) : Fin 2 → Nat :=
  let arg1 : BitVec 32 := BitVec.ofNat 32 (i 1).val
  let c512_i32_2 : BitVec 32 := 512#32
  let v7 : BitVec 32 := Scalar.muli arg1 c512_i32_2
  let v8 : BitVec 32 := v7
  let v12 : Index := Scalar.indexCast v8
  let c0_3 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S8192x256_S256_d0 : S8192x256.ReducesTo [0] S256
  bcast_S256_S1x256_1 : S256.BroadcastsInDim S1x256 (![1] : Fin 1 → Fin S1x256.rank)
  bcast_S_S1x256 : S_.BroadcastsInDim S1x256 (![] : Fin 0 → Fin S1x256.rank)
  bcast_S1x256_S8192x256_0_1 : S1x256.BroadcastsInDim S8192x256 (![0, 1] : Fin 2 → Fin S8192x256.rank)
  reducesTo_S8192x256_S_d0_1 : S8192x256.ReducesTo [0, 1] S_
  shapeCasts_S8192_S8192x1 : S8192.ShapeCasts S8192x1
  shapeCasts_S8192_S1x8192 : S8192.ShapeCasts S1x8192
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x256_S512x256_S512x512_1_1_0_0_n_n_wf : DotDims.WF S512x256 S512x256 S512x512 [1] [1] [0] [0] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x256.size a ≤ S8192x256.size a
  k0_off2_inb : ∀ i : grid0.Coords, ∀ a, (k0_off2 i) a + S512x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .bf16 = 32 ∨ (Rect.block (s := S8192x256) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_v18) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256 : Shape := ⟨1, ![256]⟩
abbrev S1x256 : Shape := ⟨2, ![1, 256]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S256, .f32⟩
  | .hbm, ⟨13, _⟩ => ⟨S1x256, .f32⟩
  | .hbm, ⟨14, _⟩ => ⟨S_, .f32⟩
  | .hbm, ⟨15, _⟩ => ⟨S1x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x256, .f32⟩
  | .hbm, ⟨25, _⟩ => ⟨S_, .f32⟩
  | .hbm, ⟨26, _⟩ => ⟨S8192, .f32⟩
  | .hbm, ⟨27, _⟩ => ⟨S256x8192, .f32⟩
  | .hbm, ⟨28, _⟩ => ⟨S8192x8192, .f32⟩
  | .hbm, ⟨29, _⟩ => ⟨S8192x1, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .i1⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_call1_v0 : Ref sig .tc := ⟨.hbm, 45, rfl⟩
abbrev main_call1_v1 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_call2_v0 : Ref sig .tc := ⟨.hbm, 50, rfl⟩
abbrev main_call2_v1 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S8192x256_S256_d0 : S8192x256.ReducesTo [0] S256
  bcast_S256_S1x256_1 : S256.BroadcastsInDim S1x256 (![1] : Fin 1 → Fin S1x256.rank)
  bcast_S_S1x256 : S_.BroadcastsInDim S1x256 (![] : Fin 0 → Fin S1x256.rank)
  bcast_S1x256_S8192x256_0_1 : S1x256.BroadcastsInDim S8192x256 (![0, 1] : Fin 2 → Fin S8192x256.rank)
  reducesTo_S8192x256_S_d0_1 : S8192x256.ReducesTo [0, 1] S_
  transposes_S8192x256_S256x8192_1_0 : S8192x256.Transposes [1, 0] S256x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Cases.lean ====
/-
  What one visit of a grid point leaves in the accumulator.

  The kernel keeps one running total in a 1×1 buffer. At a grid point it reads two row blocks of the centred matrix
  (512 rows each, at the point's row offset and at its column offset), the point's 512 squared norms as a column and
  512 squared norms as a row, forms from them the sum of the 512×512 distances of that tile, and adds the tile's sum
  to the running total. At the very first point the total is first set to zero; at every other point the total found
  in the buffer is the one the previous point left. The two lemmas below say exactly this, for any float values.
-/
import proofs.«179059_j78108275245360_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The sum of one tile's distances as the kernel forms it from the whole centred matrix `x0` (of which it reads the
    rows from the point's two offsets), the column `x1` and the row `x2` of squared norms. -/
def tileSum (i : grid0.Coords) (x0 : Vec F S8192x256 .bf16) (x1 : Vec F S512x1 .f32) (x2 : Vec F S1x512 .f32) : FVec F S1 .f32 :=
  k0_pay3 (View.ld x0 (Rect.unit (k0_off1 i) S512x256.size (k0_off1_inb i)))
    (View.ld x0 (Rect.unit (k0_off2 i) S512x256.size (k0_off2_inb i))) x1 x2

/-- At a point other than the first the accumulator ends at what it held plus the tile's sum. -/
theorem out_B (c : Dev nD) (i : grid0.Coords) (a2 : Memref sig .tc .vmem S8192x256 .bf16) (h2 : a2.IsWhole)
    (a3 : Memref sig .tc .vmem S512x1 .f32) (h3 : a3.IsWhole) (a4 : Memref sig .tc .vmem S1x512 .f32) (h4 : a4.IsWhole)
    (a5 : Memref sig .tc .vmem S1x1 .f32) (h5 : a5.IsWhole) (hc : ¬cond0_0 i)
    (x0 : Vec F S8192x256 .bf16) (x1 : Vec F S512x1 .f32) (x2 : Vec F S1x512 .f32) (xo : Vec F S1x1 .f32) :
    out0_B_3 c i a2 h2 a3 h3 a4 h4 a5 h5 hc x0 x1 x2 xo = k0_pay1 (tileSum i x0 x1 x2) xo := by
  unfold out0_B_3
  rw [View.read_writes_eq_canon _ _ _ (cover0_B_3 c i a2 h2 a3 h3 a4 h4 a5 h5 hc x0 x1 x2 xo)]
  unfold kernelRun0_B
  dsimp only
  sl_unfold_run_names
  rw [View.canon_unit_zero hz]
  simp only [View.readAt_eq_ld, h2.read_unread, h3.read_unread, h4.read_unread, h5.read_unread,
    View.ld_unit_zero (S := S1x1) hz, View.ld_unit_zero (S := S512x1) hz, View.ld_unit_zero (S := S1x512) hz]
  rfl

/-- At the first point the accumulator is set to the zero block, read back, and ends at zero plus the tile's sum. -/
theorem out_A (c : Dev nD) (i : grid0.Coords) (a2 : Memref sig .tc .vmem S8192x256 .bf16) (h2 : a2.IsWhole)
    (a3 : Memref sig .tc .vmem S512x1 .f32) (h3 : a3.IsWhole) (a4 : Memref sig .tc .vmem S1x512 .f32) (h4 : a4.IsWhole)
    (a5 : Memref sig .tc .vmem S1x1 .f32) (h5 : a5.IsWhole) (hc : cond0_0 i)
    (x0 : Vec F S8192x256 .bf16) (x1 : Vec F S512x1 .f32) (x2 : Vec F S1x512 .f32) :
    out0_A_3 c i a2 h2 a3 h3 a4 h4 a5 h5 hc x0 x1 x2 = k0_pay1 (tileSum i x0 x1 x2) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_run_names
  rw [View.canon_cons_unit_zero (S := S1x1) hz, View.readCov_unit_zero (S := S1x1) _ hz]
  simp only [View.readAt_eq_ld, h2.read_unread, h3.read_unread, h4.read_unread,
    View.ld_unit_zero (S := S512x1) hz, View.ld_unit_zero (S := S1x512) hz]
  rfl

end Cert.KernelIdeal.Acc

end
-- ==== Proof.Dist.lean ====
/-
  The quantity both programs compute, as plain mathematics on the extended reals.

  From a centred matrix `C` (8192 rows of 256 entries) and the squared norms `Q` of its rows, the distance of
  rows `a` and `b` is the square root of `Q a + Q b - 2 · ⟨C a, C b⟩` clamped below at zero, with the root
  taken only where the clamped value is positive (elsewhere the distance is zero). Everything downstream of the
  distances is their sum over all pairs of rows.
-/
import Idealize.ShloMosaic.PureOps.Ideal.Laws
import Idealize.ShloMosaic.Lib.ValueIdx

noncomputable section

namespace Cert.PairDist

open Idealize.ShloMosaic Idealize.ShloMosaic.ValueIdx

/-- The values of the three float words that occur: 0, 1 and 2. -/
abbrev w0 : EReal := Ideal.ofBits .f32 0x00000000#32
abbrev w1 : EReal := Ideal.ofBits .f32 0x3F800000#32
abbrev w2 : EReal := Ideal.ofBits .f32 0x40000000#32

/-- The square root of `d` clamped below at zero, taken only where the clamped value is positive: there the root of
    it, elsewhere zero (the inner choice feeds the root the harmless value one where it is not used). -/
def safeSqrt (d : EReal) : EReal :=
  Scalar.select (Ideal.cmp .ogt (max d w0) w0)
    (Ideal.sqrt (Scalar.select (Ideal.cmp .ogt (max d w0) w0) (max d w0) w1)) w0

/-- The distance of rows `a` and `b`. -/
def dist (C : (⟨2, ![8192, 256]⟩ : Shape).Idx → EReal) (Q : (⟨1, ![8192]⟩ : Shape).Idx → EReal) (a b : Fin 8192) : EReal :=
  safeSqrt ((Q (ix1 a) + Q (ix1 b)) - w2 * ∑ k : Fin 256, C (ix2 a k) * C (ix2 b k))

/-- The sum of all pairwise distances. -/
def total (C : (⟨2, ![8192, 256]⟩ : Shape).Idx → EReal) (Q : (⟨1, ![8192]⟩ : Shape).Idx → EReal) : EReal :=
  ∑ a : Fin 8192, ∑ b : Fin 8192, dist C Q a b

/-- The value of the word for 2^26 = 8192 · 8192, the number of pairs. -/
abbrev wN : EReal := Ideal.ofBits .f32 0x4C800000#32

/-- The last steps, the same in both programs: from the mean `v` of the squared entries and the sum `tot` of the
    distances, `1 / v + log (tot / 2^26)`. -/
def finish (v tot : EReal) : EReal := Ideal.div w1 v + Ideal.log (Ideal.div tot wN)

end Cert.PairDist

end
-- ==== Proof.LibColumnSum.lean ====
/-
  The sum of a column read at an index.

  Reducing a column `[a, 1]` along its first axis gives a vector `[1]` whose one entry is the sum of the column's
  `a` entries. The index is written by its coordinates.
-/
import Idealize.ShloMosaic.PureOps.Ideal.Laws
import Idealize.ShloMosaic.Lib.ValueIdx

namespace Cert.ColumnSum

open Idealize.ShloMosaic Idealize.ShloMosaic.ValueIdx

/-- The index of the column that reduces to `u` along the first axis and has `k` there is `(k, u)`. -/
theorem lift_col {a : ℕ} (h : (⟨2, ![a, 1]⟩ : Shape).Reduces [0] ⟨1, ![1]⟩) (u : Fin 1)
    (k : Fin ((⟨2, ![a, 1]⟩ : Shape).size 0)) : h.lift (ix1 u) k = ix2 (⟨k.val, k.isLt⟩ : Fin a) u := by
  funext d; apply Fin.ext
  match d with
  | ⟨0, _⟩ => rfl
  | ⟨1, _⟩ => rfl

/-- A float sum down a column, from the zero word: the sum of the column's entries. -/
theorem multiReduction_add_col {a : ℕ} (src : FVec Ideal ⟨2, ![a, 1]⟩ .f32)
    (h : (⟨2, ![a, 1]⟩ : Shape).Reduces [0] ⟨1, ![1]⟩) (u : Fin 1) :
    multiReduction .add [0] ⟨1, ![1]⟩ src 0x00000000#32 h (.inl rfl) rfl (ix1 u) = ∑ k : Fin a, src (ix2 k u) :=
  (Ideal.multiReduction_add_single src 0x00000000#32 h (.inl rfl) rfl (ix1 u)).trans
    (Finset.sum_congr rfl fun k _ => congrArg src (lift_col h u k))

end Cert.ColumnSum
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.TileValue.lean ====
/-
  One tile's sum, read as mathematics.

  From two row blocks `A`, `B` of the centred matrix (512 rows of 256 entries each), a column `qc` and a row `qr`
  of 512 squared norms, the kernel's arithmetic forms the 512×512 matrix whose entry `(r, s)` is the distance
  `√max(qc r + qr s - 2·⟨A r, B s⟩, 0)` (zero where the clamped value is not positive), sums every row of it, lays
  the 512 row sums out as a column and sums the column. So its one result is the double sum, over `r` and `s`,
  of those distances.
-/
import proofs.«179059_j78108275245360_1_alg».proof.Proof.Gen.KernelIdeal.Skeleton
import proofs.«179059_j78108275245360_1_alg».proof.Proof.Dist
import proofs.«179059_j78108275245360_1_alg».proof.Proof.LibColumnSum
import proofs.«179059_j78108275245360_1_alg».proof.Proof.LibColumnForms
import proofs.«179059_j78108275245360_1_alg».proof.Proof.LibRowForms
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen Cert.PairDist

abbrev DD := dot_S512x256_S512x256_S512x512_1_1_0_0_n_n

theorem lhs_0 (i : S512x512.Idx) (q : DD.contr.Idx) : (DD.lhsIdx i q 0).val = (i 0).val := by
  unfold DotDims.lhsIdx
  rw [dif_neg (show ¬(0 : Fin S512x256.rank) ∈ DD.lhsBatch by decide), dif_pos (show (0 : Fin S512x256.rank) ∈ DD.lhsNonContracting by decide)]
  rfl
theorem lhs_1 (i : S512x512.Idx) (q : DD.contr.Idx) : (DD.lhsIdx i q 1).val = (q ⟨0, by decide⟩).val :=
  DD.lhsIdx_val_of_single rfl i q
theorem rhs_0 (i : S512x512.Idx) (q : DD.contr.Idx) : (DD.rhsIdx i q 0).val = (i 1).val := by
  unfold DotDims.rhsIdx
  rw [dif_neg (show ¬(0 : Fin S512x256.rank) ∈ DD.rhsBatch by decide), dif_pos (show (0 : Fin S512x256.rank) ∈ DD.rhsNonContracting by decide)]
  rfl
theorem rhs_1 (i : S512x512.Idx) (q : DD.contr.Idx) : (DD.rhsIdx i q 1).val = (q ⟨0, by decide⟩).val :=
  DD.rhsIdx_val_of_single rfl i q

/-- The product of one block with the transpose of the other, onto zero: entry `(r, s)` is the inner product of
    row `r` of the first with row `s` of the second. -/
theorem gram_apply (A B : FVec Ideal S512x256 .bf16) (r s : Fin 512) :
    matmul DD none A B (constant S512x512 .f32 0x00000000#32) (ix2 r s) = ∑ k : Fin 256, A (ix2 r k) * B (ix2 s k) := by
  simp only [matmul]
  rw [Ideal.matmul_constant_zero_apply, ← Equiv.sum_comp (contrEquiv1 DD 256 rfl rfl).symm]
  refine Finset.sum_congr rfl fun k _ => ?_
  have hk := contrEquiv1_symm_val DD 256 rfl rfl k
  have el : DD.lhsIdx (ix2 r s) ((contrEquiv1 DD 256 rfl rfl).symm k) = ix2 r k := funext fun a => Fin.ext (by
    match a with
    | ⟨0, _⟩ => exact lhs_0 _ _
    | ⟨1, _⟩ => exact (lhs_1 _ _).trans hk)
  have er : DD.rhsIdx (ix2 r s) ((contrEquiv1 DD 256 rfl rfl).symm k) = ix2 s k := funext fun a => Fin.ext (by
    match a with
    | ⟨0, _⟩ => exact rhs_0 _ _
    | ⟨1, _⟩ => exact (rhs_1 _ _).trans hk)
  rw [el, er]

/-- The tile's sum is the double sum of the distances of its rows. -/
theorem tile_apply (A B : Vec Ideal S512x256 .bf16) (qc : Vec Ideal S512x1 .f32) (qr : Vec Ideal S1x512 .f32) (u : Fin 1) :
    k0_pay3 (F := Ideal) A B qc qr (ix1 u)
      = ∑ r : Fin 512, ∑ s : Fin 512,
          safeSqrt ((qc (ix2 r (0 : Fin 1)) + qr (ix2 (0 : Fin 1) s)) - w2 * ∑ k : Fin 256, A (ix2 r k) * B (ix2 s k)) := by
  unfold k0_pay3
  dsimp only
  refine (Cert.ColumnSum.multiReduction_add_col _ reduces_S512x1_S1 u).trans ?_
  refine Finset.sum_congr rfl fun r _ => ?_
  obtain rfl : u = 0 := Subsingleton.elim _ _
  refine (Cert.ColumnForms.shapeCast_a_a1_apply _ shapeCasts_S512_S512x1 r 0).trans ?_
  refine (Cert.RowForms.multiReduction_add_rows _ reduces_S512x512_S512 r).trans ?_
  refine Finset.sum_congr rfl fun s _ => ?_
  have e1 : broadcastTo S512x512 (shapeCast S512x1 qc shapeCasts_S512x1_S512x1) broadcasts_S512x1_S512x512 (ix2 r s)
      = qc (ix2 r (0 : Fin 1)) := by
    rw [shapeCast_self]; exact Cert.ColumnForms.broadcastTo_a1_ab_apply qc _ r s
  have e2 : broadcastTo S512x512 (shapeCast S1x512 qr shapeCasts_S1x512_S1x512) broadcasts_S1x512_S512x512 (ix2 r s)
      = qr (ix2 (0 : Fin 1) s) := by
    rw [shapeCast_self]; exact broadcastTo_1b_ab_apply qr _ r s
  have e3 : (matmul (F := Ideal) (φ₁ := .bf16) (φ₂ := .bf16) DD none (shapeCast S512x256 (A : FVec Ideal S512x256 .bf16) shapeCasts_S512x256_S512x256)
      (shapeCast S512x256 (B : FVec Ideal S512x256 .bf16) shapeCasts_S512x256_S512x256)
      (constant S512x512 .f32 0x00000000#32) : FVec Ideal S512x512 .f32) (ix2 r s)
      = ∑ k : Fin 256, A (ix2 r k) * B (ix2 s k) := by
    rw [shapeCast_self, shapeCast_self]; exact gram_apply A B r s
  show safeSqrt ((broadcastTo S512x512 (shapeCast S512x1 qc shapeCasts_S512x1_S512x1) broadcasts_S512x1_S512x512 (ix2 r s)
      + broadcastTo S512x512 (shapeCast S1x512 qr shapeCasts_S1x512_S1x512) broadcasts_S1x512_S512x512 (ix2 r s))
      - w2 * (matmul (F := Ideal) (φ₁ := .bf16) (φ₂ := .bf16) DD none (shapeCast S512x256 (A : FVec Ideal S512x256 .bf16) shapeCasts_S512x256_S512x256)
        (shapeCast S512x256 (B : FVec Ideal S512x256 .bf16) shapeCasts_S512x256_S512x256)
        (constant S512x512 .f32 0x00000000#32) : FVec Ideal S512x512 .f32) (ix2 r s)) = _
  rw [e1, e2, e3]

end Cert.KernelIdeal.Tile

end
-- ==== Proof.LibTiledSum.lean ====
/-
  A double sum taken tile by tile, and a total built up one tile at a time.

  A sum over all pairs `(a, b)`, `a` below `nA · R` and `b` below `nB · S`, can be taken tile by tile: the pairs
  are cut into `nA · nB` tiles of `R × S` pairs, tile `t` (counted row by row, so that it sits in tile row `t / nB`
  and tile column `t % nB`) holding the pairs `(R · (t / nB) + r, S · (t % nB) + s)`. Addition being commutative and
  associative, the sum of the tiles' sums is the whole sum.

  And a running total that starts from `z` plus the first term and then adds one term per step is, after step `n`,
  `z` plus the sum of the terms up to `n`; after the last step it is `z` plus the sum of all of them.
-/
import Mathlib.Algebra.BigOperators.Fin
import Mathlib.Algebra.BigOperators.Group.Finset.Basic
import Mathlib.Logic.Equiv.Fin.Basic

namespace Cert.TiledSum

open Finset

/-- Position `r` inside block `q` of `n` blocks of length `R` is below `n · R`. -/
theorem block_lt {n R q r : ℕ} (hq : q < n) (hr : r < R) : R * q + r < n * R :=
  calc R * q + r < R * q + R := Nat.add_lt_add_left hr _
    _ = R * (q + 1) := (Nat.mul_succ R q).symm
    _ ≤ R * n := Nat.mul_le_mul_left _ hq
    _ = n * R := Nat.mul_comm _ _

/-- The tile row of tile `t`, counted row by row among `nA · nB` tiles, is below `nA`. -/
theorem tileRow_lt {nA nB : ℕ} (t : Fin (nA * nB)) : t.val / nB < nA :=
  Nat.div_lt_of_lt_mul (lt_of_lt_of_eq t.isLt (Nat.mul_comm nA nB))

/-- Its tile column is below `nB`. -/
theorem tileCol_lt {nA nB : ℕ} (t : Fin (nA * nB)) : t.val % nB < nB :=
  Nat.mod_lt _ (Nat.pos_of_ne_zero fun h => by subst h; exact absurd t.isLt (by simp))

/-- Row `r` of tile `t`, as a row of the whole. -/
def rowOf {nA nB R : ℕ} (t : Fin (nA * nB)) (r : Fin R) : Fin (nA * R) :=
  ⟨R * (t.val / nB) + r.val, block_lt (tileRow_lt t) r.isLt⟩

/-- Column `s` of tile `t`, as a column of the whole. -/
def colOf {nA nB S : ℕ} (t : Fin (nA * nB)) (s : Fin S) : Fin (nB * S) :=
  ⟨S * (t.val % nB) + s.val, block_lt (tileCol_lt t) s.isLt⟩

/-- The whole double sum is the sum, over the tiles, of each tile's double sum. -/
theorem sum_eq_sum_tiles {M : Type*} [AddCommMonoid M] {nA nB R S : ℕ} (f : Fin (nA * R) → Fin (nB * S) → M) :
    ∑ a, ∑ b, f a b = ∑ t : Fin (nA * nB), ∑ r : Fin R, ∑ s : Fin S, f (rowOf t r) (colOf t s) := by
  have h1 : ∑ a, ∑ b, f a b
      = ∑ i : Fin nA, ∑ r : Fin R, ∑ j : Fin nB, ∑ s : Fin S, f (finProdFinEquiv (i, r)) (finProdFinEquiv (j, s)) := by
    refine (Equiv.sum_comp (finProdFinEquiv (m := nA) (n := R)) fun a => ∑ b, f a b).symm.trans ?_
    rw [Fintype.sum_prod_type]
    refine Finset.sum_congr rfl fun i _ => Finset.sum_congr rfl fun r _ => ?_
    refine (Equiv.sum_comp (finProdFinEquiv (m := nB) (n := S)) fun b => f (finProdFinEquiv (i, r)) b).symm.trans ?_
    rw [Fintype.sum_prod_type]
  have h2 : ∑ t : Fin (nA * nB), ∑ r : Fin R, ∑ s : Fin S, f (rowOf t r) (colOf t s)
      = ∑ i : Fin nA, ∑ j : Fin nB, ∑ r : Fin R, ∑ s : Fin S, f (finProdFinEquiv (i, r)) (finProdFinEquiv (j, s)) := by
    refine (Equiv.sum_comp (finProdFinEquiv (m := nA) (n := nB))
      fun t => ∑ r : Fin R, ∑ s : Fin S, f (rowOf t r) (colOf t s)).symm.trans ?_
    rw [Fintype.sum_prod_type]
    refine Finset.sum_congr rfl fun i _ => Finset.sum_congr rfl fun j _ => ?_
    refine Finset.sum_congr rfl fun r _ => Finset.sum_congr rfl fun s _ => ?_
    have hpos : 0 < nB := Nat.pos_of_ne_zero fun h => by subst h; exact j.elim0
    have hi : (finProdFinEquiv (i, j)).val / nB = i.val := by
      rw [finProdFinEquiv_apply_val, Nat.add_mul_div_left _ _ hpos, Nat.div_eq_of_lt j.isLt, Nat.zero_add]
    have hj : (finProdFinEquiv (i, j)).val % nB = j.val := by
      rw [finProdFinEquiv_apply_val, Nat.add_mul_mod_self_left, Nat.mod_eq_of_lt j.isLt]
    have er : rowOf (finProdFinEquiv (i, j)) r = finProdFinEquiv (i, r) := Fin.ext (by
      show R * ((finProdFinEquiv (i, j)).val / nB) + r.val = (finProdFinEquiv (i, r)).val
      rw [hi, finProdFinEquiv_apply_val, Nat.add_comm])
    have ec : colOf (finProdFinEquiv (i, j)) s = finProdFinEquiv (j, s) := Fin.ext (by
      show S * ((finProdFinEquiv (i, j)).val % nB) + s.val = (finProdFinEquiv (j, s)).val
      rw [hj, finProdFinEquiv_apply_val, Nat.add_comm])
    rw [er, ec]
  rw [h1, h2]
  exact Finset.sum_congr rfl fun i _ => Finset.sum_comm

/-- A running total: `acc 0 = z + T 0` and `acc (n + 1) = acc n + T (n + 1)` give `acc n = z + ∑_{k ≤ n} T k`. -/
theorem running_total {M : Type*} [AddCommMonoid M] {N : ℕ} (T : Fin N → M) (z : M) (acc : (n : ℕ) → n < N → M)
    (h0 : ∀ h : 0 < N, acc 0 h = z + T ⟨0, h⟩)
    (hs : ∀ (n : ℕ) (h : n + 1 < N), acc (n + 1) h = acc n (Nat.lt_of_succ_lt h) + T ⟨n + 1, h⟩) :
    ∀ (n : ℕ) (h : n < N), acc n h = z + ∑ k : Fin (n + 1), T ⟨k.val, lt_of_lt_of_le k.isLt h⟩
  | 0, h => by rw [h0 h, Fin.sum_univ_one]; rfl
  | n + 1, h => by
    rw [hs n h, running_total T z acc h0 hs n (Nat.lt_of_succ_lt h), Fin.sum_univ_castSucc (n := n + 1), add_assoc]
    rfl

/-- After the last step the running total is `z` plus the sum of all the terms. -/
theorem running_total_last {M : Type*} [AddCommMonoid M] {N : ℕ} (T : Fin (N + 1) → M) (z : M)
    (acc : (n : ℕ) → n < N + 1 → M) (h0 : ∀ h : 0 < N + 1, acc 0 h = z + T ⟨0, h⟩)
    (hs : ∀ (n : ℕ) (h : n + 1 < N + 1), acc (n + 1) h = acc n (Nat.lt_of_succ_lt h) + T ⟨n + 1, h⟩) :
    acc N (Nat.lt_succ_self N) = z + ∑ t, T t :=
  running_total T z acc h0 hs N (Nat.lt_succ_self N)

end Cert.TiledSum
-- ==== Proof.Blocks.lean ====
/-
  What the kernel's windows hold, in terms of the argument.

  Before the kernel runs, the surrounding program has normalised the rows of the argument, centred the columns,
  taken the mean square `v` of the centred matrix `C` and the squared norm `Q a` of each of its rows; these are the
  same operations, in the same order, as the reference's, so the arrays handed to the kernel are the reference's own
  intermediate values: `C` itself (its entries kept when narrowed to sixteen bits, a change of format being the
  identity on extended reals), `Q` laid out as a column and `Q` laid out as a row.

  At grid point `t` (tile row `t / 16`, tile column `t % 16`) the kernel sees the whole of `C`, rows
  `512·(t/16) …` of the column and columns `512·(t%16) …` of the row, and reads from `C` the two row blocks that
  start at those same offsets.
-/
import proofs.«179059_j78108275245360_1_alg».proof.Proof.Gen.KernelIdeal.Frame
import proofs.«179059_j78108275245360_1_alg».proof.Proof.Gen.ReferenceIdeal.Read
import proofs.«179059_j78108275245360_1_alg».proof.Proof.LibTiledSum
import proofs.«179059_j78108275245360_1_alg».proof.Proof.LibColumnForms
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.TiledSum

variable (m : (ℓ : Loc nD τ sig) → Buf (Elt Ideal) ℓ)

/-- The centred matrix, the squared norms of its rows and its mean square, as the reference computes them from the
    argument the kernel's program was launched with. -/
abbrev CM (c : Dev nD) : S8192x256.Idx → EReal :=
  Cert.ReferenceIdeal.Read.val_main_v10 (F := Ideal) (m ((c : Thread nD τ).loc main_arg0))
abbrev QV (c : Dev nD) : S8192.Idx → EReal :=
  Cert.ReferenceIdeal.Read.val_main_v15 (F := Ideal) (m ((c : Thread nD τ).loc main_arg0))
abbrev MS (c : Dev nD) : S_.Idx → EReal :=
  Cert.ReferenceIdeal.Read.val_main_v13 (F := Ideal) (m ((c : Thread nD τ).loc main_arg0))

/-- The kernel's first operand is the centred matrix. -/
theorem V_centred (c : Dev nD) : (V m c main_v18 : S8192x256.Idx → EReal) = CM m c := by
  dsimp only [Gen.V, Gen.V0]
  simp only [Gen.hostOps0, Gen.hostOps0_1, List.flatten_cons, List.flatten_nil, List.append_nil, List.cons_append, List.nil_append]
  after_results
  rfl

/-- Its second operand is the squared norms as a column. -/
theorem V_col (c : Dev nD) : (V m c main_v16 : S8192x1.Idx → EReal) = shapeCast S8192x1 (QV m c) shapeCasts_S8192_S8192x1 := by
  dsimp only [Gen.V, Gen.V0]
  simp only [Gen.hostOps0, Gen.hostOps0_1, List.flatten_cons, List.flatten_nil, List.append_nil, List.cons_append, List.nil_append]
  after_results
  rfl

/-- Its third operand is the squared norms as a row. -/
theorem V_row (c : Dev nD) : (V m c main_v17 : S1x8192.Idx → EReal) = shapeCast S1x8192 (QV m c) shapeCasts_S8192_S1x8192 := by
  dsimp only [Gen.V, Gen.V0]
  simp only [Gen.hostOps0, Gen.hostOps0_1, List.flatten_cons, List.flatten_nil, List.append_nil, List.cons_append, List.nil_append]
  after_results
  rfl

/-- The mean square, which the lines after the kernel read. -/
theorem V_meansq (c : Dev nD) : (V m c main_v13 : S_.Idx → EReal) = MS m c := by
  dsimp only [Gen.V, Gen.V0]
  simp only [Gen.hostOps0, Gen.hostOps0_1, List.flatten_cons, List.flatten_nil, List.append_nil, List.cons_append, List.nil_append]
  after_results
  rfl

/-- Point `t` is in tile row `t / 16` and tile column `t % 16`. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- Which block of its array each window shows at point `t`. -/
theorem idx_facts : ∀ t : Fin cfg0.N, win0_0.index t 0 = 0 ∧ win0_0.index t 1 = 0 ∧ win0_1.index t 0 = t.val / 16 ∧ win0_1.index t 1 = 0
    ∧ win0_2.index t 0 = 0 ∧ win0_2.index t 1 = t.val % 16 ∧ win0_3.index t 0 = 0 ∧ win0_3.index t 1 = 0 :=
  (by decide +kernel : ∀ t : Fin grid0.N, win0_0.index t 0 = 0 ∧ win0_0.index t 1 = 0 ∧ win0_1.index t 0 = t.val / 16 ∧ win0_1.index t 1 = 0
    ∧ win0_2.index t 0 = 0 ∧ win0_2.index t 1 = t.val % 16 ∧ win0_3.index t 0 = 0 ∧ win0_3.index t 1 = 0)

/-- A grid point as a tile number among the 16 × 16 tiles. -/
def pt (t : Fin cfg0.N) : Fin (16 * 16) := ⟨t.val, lt_of_lt_of_eq t.isLt N_0⟩

/-- The row block the kernel reads at the point's row offset: its row `r` is row `512·(t/16) + r` of `C`. -/
theorem rows_read (c : Dev nD) (t : Fin cfg0.N) (r : Fin 512) (k : Fin 256) :
    View.ld (iblk m c 0 t : Vec Ideal S8192x256 .bf16) (Rect.unit (k0_off1 (grid0.coords t)) S512x256.size (k0_off1_inb (grid0.coords t))) (ix2 r k)
      = CM m c (ix2 (rowOf (nA := 16) (nB := 16) (R := 512) (pt t) r) k) := by
  rw [← V_centred]
  show V m c main_v18 (((cfg0.win 0).blk t).view.emb _) = V m c main_v18 _
  refine congrArg (V m c main_v18) (funext fun a => Fin.ext ?_)
  have hi := idx_facts t
  have hc := coords_val t
  match a with
  | ⟨0, _⟩ =>
    show win0_0.index t 0 * 8192 + 1 * (k0_off1 (grid0.coords t) 0 + 1 * r.val) = 512 * (t.val / 16) + r.val
    rw [hi.1, k0_off1_eq]
    show 0 * 8192 + 1 * (512 * (grid0.coords t 0).val + 1 * r.val) = _
    rw [hc.1]; omega
  | ⟨1, _⟩ =>
    show win0_0.index t 1 * 256 + 1 * (k0_off1 (grid0.coords t) 1 + 1 * k.val) = k.val
    rw [hi.2.1, k0_off1_eq]
    show 0 * 256 + 1 * (0 + 1 * k.val) = _
    omega

/-- The row block the kernel reads at the point's column offset: its row `s` is row `512·(t%16) + s` of `C`. -/
theorem cols_read (c : Dev nD) (t : Fin cfg0.N) (s : Fin 512) (k : Fin 256) :
    View.ld (iblk m c 0 t : Vec Ideal S8192x256 .bf16) (Rect.unit (k0_off2 (grid0.coords t)) S512x256.size (k0_off2_inb (grid0.coords t))) (ix2 s k)
      = CM m c (ix2 (colOf (nA := 16) (nB := 16) (S := 512) (pt t) s) k) := by
  rw [← V_centred]
  show V m c main_v18 (((cfg0.win 0).blk t).view.emb _) = V m c main_v18 _
  refine congrArg (V m c main_v18) (funext fun a => Fin.ext ?_)
  have hi := idx_facts t
  have hc := coords_val t
  match a with
  | ⟨0, _⟩ =>
    show win0_0.index t 0 * 8192 + 1 * (k0_off2 (grid0.coords t) 0 + 1 * s.val) = 512 * (t.val % 16) + s.val
    rw [hi.1, k0_off2_eq]
    show 0 * 8192 + 1 * (512 * (grid0.coords t 1).val + 1 * s.val) = _
    rw [hc.2]; omega
  | ⟨1, _⟩ =>
    show win0_0.index t 1 * 256 + 1 * (k0_off2 (grid0.coords t) 1 + 1 * k.val) = k.val
    rw [hi.2.1, k0_off2_eq]
    show 0 * 256 + 1 * (0 + 1 * k.val) = _
    omega

/-- The column of squared norms the kernel sees at point `t`: entry `r` is `Q (512·(t/16) + r)`. -/
theorem col_read (c : Dev nD) (t : Fin cfg0.N) (r : Fin 512) :
    (iblk m c 1 t : Vec Ideal S512x1 .f32) (ix2 r (0 : Fin 1)) = QV m c (ix1 (rowOf (nA := 16) (nB := 16) (R := 512) (pt t) r)) := by
  refine Eq.trans ?_ (Cert.ColumnForms.shapeCast_a_a1_apply (QV m c) shapeCasts_S8192_S8192x1 _ (0 : Fin 1))
  rw [← V_col]
  show V m c main_v16 (((cfg0.win 1).blk t).view.emb _) = V m c main_v16 _
  refine congrArg (V m c main_v16) (funext fun a => Fin.ext ?_)
  have hi := idx_facts t
  match a with
  | ⟨0, _⟩ =>
    show win0_1.index t 0 * 512 + 1 * r.val = 512 * (t.val / 16) + r.val
    rw [hi.2.2.1]; omega
  | ⟨1, _⟩ =>
    show win0_1.index t 1 * 1 + 1 * 0 = 0
    rw [hi.2.2.2.1]

/-- The row of squared norms the kernel sees at point `t`: entry `s` is `Q (512·(t%16) + s)`. -/
theorem row_read (c : Dev nD) (t : Fin cfg0.N) (s : Fin 512) :
    (iblk m c 2 t : Vec Ideal S1x512 .f32) (ix2 (0 : Fin 1) s) = QV m c (ix1 (colOf (nA := 16) (nB := 16) (S := 512) (pt t) s)) := by
  refine Eq.trans ?_ (shapeCast_a_1a_apply (QV m c) shapeCasts_S8192_S1x8192 (0 : Fin 1) _)
  rw [← V_row]
  show V m c main_v17 (((cfg0.win 2).blk t).view.emb _) = V m c main_v17 _
  refine congrArg (V m c main_v17) (funext fun a => Fin.ext ?_)
  have hi := idx_facts t
  match a with
  | ⟨0, _⟩ =>
    show win0_2.index t 0 * 1 + 1 * 0 = 0
    rw [hi.2.2.2.2.1]
  | ⟨1, _⟩ =>
    show win0_2.index t 1 * 512 + 1 * s.val = 512 * (t.val % 16) + s.val
    rw [hi.2.2.2.2.2.1]; omega

end Cert.KernelIdeal.Blocks

end
-- ==== Proof.Total.lean ====
/-
  The kernel's program, read as mathematics.

  Each grid point adds its tile's sum of distances to the running total; the tile of point `t` holds the pairs of
  rows `(512·(t/16) + r, 512·(t%16) + s)`. After the last of the 256 points the total is zero plus the sum over all
  tiles, which is the sum over all pairs of rows: addition of extended reals is commutative and associative, so the
  order in which the pairs are visited does not matter. The total is written back once, after the last point; the
  lines after the kernel divide it by the number of pairs, take the logarithm and add the reciprocal of the mean
  square.
-/
import proofs.«179059_j78108275245360_1_alg».proof.Proof.Cases
import proofs.«179059_j78108275245360_1_alg».proof.Proof.TileValue
import proofs.«179059_j78108275245360_1_alg».proof.Proof.Blocks
import proofs.«179059_j78108275245360_1_alg».proof.Proof.LibTiledSum
import proofs.«179059_j78108275245360_1_alg».proof.Proof.Dist

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Acc Cert.KernelIdeal.Tile Cert.KernelIdeal.Blocks
open Cert.PairDist Cert.TiledSum

variable (m : (ℓ : Loc nD τ sig) → Buf (Elt Ideal) ℓ) (ρ : Dev nD → PrngReg)

/-- Adding a tile's sum to the accumulator, entry by entry (the accumulator has one entry). -/
theorem pay1_apply (v37 : FVec Ideal S1 .f32) (v39 : Vec Ideal S1x1 .f32) (y : S1x1.Idx) :
    k0_pay1 (F := Ideal) v37 v39 y = v39 y + v37 (ix1 (0 : Fin 1)) := by
  unfold k0_pay1
  obtain ⟨p, q, rfl⟩ : ∃ (p : Fin 1) (q : Fin 1), y = ix2 p q := ⟨y 0, y 1, eq_ix2 y⟩
  show shapeCast S1x1 v39 shapeCasts_S1x1_S1x1 (ix2 p q) + shapeCast S1x1 v37 shapeCasts_S1_S1x1 (ix2 p q) = _
  rw [shapeCast_self, Cert.ColumnForms.shapeCast_a_a1_apply v37 shapeCasts_S1_S1x1 p q]
  obtain rfl : p = 0 := Subsingleton.elim _ _
  rfl

/-- The sum of the distances of the tile of point `t`, as the kernel forms it there. -/
def tileAt (c : Dev nD) (t : Fin cfg0.N) : EReal :=
  tileSum (F := Ideal) (grid0.coords t) (iblk m c 0 t) (iblk m c 1 t) (iblk m c 2 t) (ix1 (0 : Fin 1))

/-- It is the sum of the distances of the pairs of rows of that tile. -/
theorem tileAt_eq (c : Dev nD) (t : Fin cfg0.N) :
    tileAt m c t = ∑ r : Fin 512, ∑ s : Fin 512, dist (CM m c) (QV m c)
      (rowOf (nA := 16) (nB := 16) (R := 512) (pt t) r) (colOf (nA := 16) (nB := 16) (S := 512) (pt t) s) := by
  unfold tileAt tileSum
  rw [tile_apply]
  refine Finset.sum_congr rfl fun r _ => Finset.sum_congr rfl fun s _ => ?_
  rw [col_read m c t r, row_read m c t s]
  simp only [rows_read m c t r, cols_read m c t s]
  rfl

/-- After the first point the accumulator holds zero plus the first tile's sum. -/
theorem outs_A (c : Dev nD) (t : Fin cfg0.N) (h0 : t.val % 256 = 0) (y : S1x1.Idx) :
    outsAt0 m c t.val t.isLt y = w0 + tileAt m c t := by
  rw [outsAt0_A m c t h0, out_A c (grid0.coords t) (ms0_0 t) (hs0_0 t) (ms0_1 t) (hs0_1 t) (ms0_2 t) (hs0_2 t) (ms0_3 t) (hs0_3 t)
    ((hcond0_0 t).mpr h0) (iblk m c 0 t) (iblk m c 1 t) (iblk m c 2 t), pay1_apply]
  rfl

/-- After any other point it holds what the point before left plus this point's tile's sum. -/
theorem outs_B (c : Dev nD) (t : Fin cfg0.N) (h0 : ¬t.val % 256 = 0) (y : S1x1.Idx) :
    outsAt0 m c t.val t.isLt y
      = outsAt0 m c (t.val - 1) (Nat.lt_of_le_of_lt (Nat.sub_le _ _) t.isLt) y + tileAt m c t := by
  rw [outsAt0_B m c t h0, out_B c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t) (iblk m c 2 t)
    (outsAt0 m c (t.val - 1) (Nat.lt_of_le_of_lt (Nat.sub_le _ _) t.isLt)), pay1_apply]
  rfl

/-- The sum of all the tiles' sums is the sum of all pairwise distances. -/
theorem sum_tiles (c : Dev nD) :
    ∑ t : Fin (255 + 1), tileAt m c ⟨t.val, lt_of_lt_of_eq t.isLt N_0.symm⟩ = total (CM m c) (QV m c) :=
  (Finset.sum_congr rfl fun t _ => tileAt_eq m c ⟨t.val, lt_of_lt_of_eq t.isLt N_0.symm⟩).trans
    (sum_eq_sum_tiles (nA := 16) (nB := 16) (R := 512) (S := 512) (fun a b => dist (CM m c) (QV m c) a b)).symm

/-- After the last point the accumulator holds zero plus the sum of all pairwise distances. -/
theorem outs_last (c : Dev nD) (y : S1x1.Idx) :
    outsAt0 m c 255 (lt_of_lt_of_eq (Nat.lt_succ_self 255) N_0.symm) y = w0 + total (CM m c) (QV m c) := by
  rw [← sum_tiles m c]
  exact running_total_last (N := 255) (fun t => tileAt m c ⟨t.val, lt_of_lt_of_eq t.isLt N_0.symm⟩) w0
    (fun n h => outsAt0 m c n (lt_of_lt_of_eq h N_0.symm) y)
    (fun h => outs_A m c ⟨0, lt_of_lt_of_eq h N_0.symm⟩ rfl y)
    (fun n h => outs_B m c ⟨n + 1, lt_of_lt_of_eq h N_0.symm⟩ (by show ¬(n + 1) % 256 = 0; omega) y)

end Cert.KernelIdeal.Total

end
-- ==== Proof.KernelRun.lean ====
/-
  The run of the kernel's program and its result.

  The running total is written back to its 1×1 array once, after the last grid point, so that array ends holding
  zero plus the sum of all pairwise distances; the lines after the kernel turn it into the result,
  `1 / v + log (total / 2^26)` with `v` the mean square of the centred matrix.
-/
import proofs.«179059_j78108275245360_1_alg».proof.Proof.Total

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Blocks Cert.KernelIdeal.Total
open Cert.PairDist

variable (m : (ℓ : Loc nD τ sig) → Buf (Elt Ideal) ℓ) (ρ : Dev nD → PrngReg)

/-- What the accumulator's array ends holding: zero plus the sum of all pairwise distances, at its one index. -/
abbrev summed (c : Dev nD) : Buf (Elt Ideal) ((c : Thread nD τ).loc main_v19) := fun _ => w0 + total (CM m c) (QV m c)

/-- The last grid point. -/
abbrev tLast : Fin cfg0.N := ⟨255, lt_of_lt_of_eq (Nat.lt_succ_self 255) N_0.symm⟩

/-- The one write-back, after the last point, writes it. -/
theorem flushed_eq (c : Dev nD) (t : Fin cfg0.N) (hf : (cfg0.win 3).flush t = true) :
    (dats m 0 c).flushed 3 t = ((cfg0.win 3).blk t).view.read (Elt Ideal) (summed m c) := by
  have hN : cfg0.N = 256 := N_0
  have h255 : t.val = 255 := by have := (flush0_3 t).mp hf; have := t.isLt; omega
  obtain rfl : t = tLast := Fin.ext h255
  show (cfg0.win 3).cut (grid0.coords tLast) ((dats m 0 c).after 3 tLast) = _
  rw [after0_3]
  have e : outsAt0 m c 255 (lt_of_lt_of_eq (Nat.lt_succ_self 255) N_0.symm) = fun _ => w0 + total (CM m c) (QV m c) :=
    funext fun y => outs_last m c y
  show (cfg0.win 3).cut (grid0.coords tLast) (outsAt0 m c 255 (lt_of_lt_of_eq (Nat.lt_succ_self 255) N_0.symm)) = _
  rw [e]
  rfl

/-- So the array ends holding it: the last point's block is the whole 1×1 array. -/
theorem final (c : Dev nD) : (dats m 0 c).arrAt 3 cfg0.N = summed m c :=
  (dats m 0 c).arrAt_eq_of_cover 3 (summed m c) (flushed_eq m c) fun i =>
    ⟨tLast, (flush0_3 tLast).mpr rfl, by
      show i ∈ ((View.whole main_v19).slice (win0_3.rect tLast)).set
      rw [View.set_slice_whole, Rect.mem_set_unit]
      intro a
      have h0 : (i 0 : Nat) < 1 := (i 0).isLt
      have h1 : (i 1 : Nat) < 1 := (i 1).isLt
      have hi := idx_facts tLast
      match a with
      | ⟨0, _⟩ =>
        show win0_3.index tLast 0 * 1 ≤ (i 0 : Nat) ∧ (i 0 : Nat) < win0_3.index tLast 0 * 1 + 1
        rw [hi.2.2.2.2.2.2.1]; omega
      | ⟨1, _⟩ =>
        show win0_3.index tLast 1 * 1 ≤ (i 1 : Nat) ∧ (i 1 : Nat) < win0_3.index tLast 1 * 1 + 1
        rw [hi.2.2.2.2.2.2.2]; omega⟩

/-- The program's result, as the lines after the kernel compute it. -/
abbrev result (c : Dev nD) : Buf (Elt Ideal) ((c : Thread nD τ).loc main_v24) :=
  fun i => finish (MS m c i) (w0 + total (CM m c) (QV m c))

theorem tail_eq (c : Dev nD) :
    Pipeline.afterTail₀ cfgs (dats m) 0 (V0 m) [hostOps1] c main_v24 = result m c := by
  unfold Pipeline.afterTail₀
  show StableHlo.after hostOps1 _ (Proc.devRef .tc main_v24) = _
  after_results
  have hw : Pipeline.withArrays (cfgs 0).spec c (V0 m c) (fun w => (dats m 0 c).arrAt w (cfgs 0).N) (Proc.devRef .tc main_v19)
      = summed m c := (Pipeline.withArrays_arr spec0 launch0.win.arr_inj c _ _ 3).trans (final m c)
  have hv : Pipeline.withArrays (cfgs 0).spec c (V0 m c) (fun w => (dats m 0 c).arrAt w (cfgs 0).N) (Proc.devRef .tc main_v13)
      = MS m c := (Pipeline.withArrays_of_ne (cfgs 0).spec c (V0 m c) _ main_v13 (by decide)).trans (V_meansq m c)
  rw [hw, hv]
  rfl

/-- The run, read: the result at `1 / v + log (total / 2^26)`, the argument unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0) :=
  (θ_run defs _ _).mono (fun _ h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c)⟩)
    (run_main m ρ)

end Cert.KernelIdeal.Value

end
-- ==== Proof.RefTotal.lean ====
/-
  The reference, read as mathematics.

  The reference forms the whole 8192×8192 matrix of distances at once: the squared norms laid out as a column and as
  a row and added, twice the product of the centred matrix with its transpose subtracted, the clamp at zero, the
  guarded square root. Entry `(a, b)` of that matrix is the distance of rows `a` and `b`; the reference then sums
  every entry, divides by the number of pairs, takes the logarithm and adds the reciprocal of the mean square.
-/
import proofs.«179059_j78108275245360_1_alg».proof.Proof.Gen.ReferenceIdeal.Read
import proofs.«179059_j78108275245360_1_alg».proof.Proof.Dist

noncomputable section

open Idealize.ShloMosaic Idealize.ShloMosaic.ValueIdx

namespace Cert.ReferenceIdeal.RefValue

open Cert.ReferenceIdeal Cert.ReferenceIdeal.Read Cert.PairDist

/-- Entry `(a, b)` of the reference's matrix of distances is the distance of rows `a` and `b` of its centred
    matrix, from its squared norms. -/
theorem entry_eq (x : (⟨S8192x256, .f32⟩ : BufTy).Contents (Elt Ideal)) (a b : Fin 8192) :
    val_main_v32 (F := Ideal) x (ix2 a b) = dist (val_main_v10 (F := Ideal) x) (val_main_v15 (F := Ideal) x) a b := by
  have i1 : idx_main_v18 (idx_main_v20 (ix2 a b)) = ix1 a := funext fun d => Fin.ext (by match d with | ⟨0, _⟩ => rfl)
  have i2 : idx_main_v19 (idx_main_v21 (ix2 a b)) = ix1 b := funext fun d => Fin.ext (by match d with | ⟨0, _⟩ => rfl)
  have i3 : ∀ k : Fin 256, lidx_main_v17 (ix2 a b) k = ix2 a k := fun k =>
    funext fun d => Fin.ext (by match d with | ⟨0, _⟩ => rfl | ⟨1, _⟩ => rfl)
  have i4 : ∀ k : Fin 256, idx_main_v16 (ridx_main_v17 (ix2 a b) k) = ix2 b k := fun k =>
    funext fun d => Fin.ext (by match d with | ⟨0, _⟩ => rfl | ⟨1, _⟩ => rfl)
  simp only [val_main_v32_apply, val_main_v31_apply, val_main_v30_apply, val_main_v29_apply, val_main_v27_apply,
    val_main_v25_apply, val_main_v22_apply, val_main_v20_apply, val_main_v18_apply, val_main_v21_apply,
    val_main_v19_apply, val_main_v24_apply, val_main_v17_apply, val_main_v16_apply, val_main_v23_apply,
    val_main_v26_apply, val_main_v28_apply, val_main_call1_v1_apply, val_main_call1_v0_apply,
    val_main_call2_v1_apply, val_main_call2_v0_apply, val_main_cst_5_apply, val_main_cst_6_apply,
    val_main_cst_7_apply, val_main_cst_8_apply, val_main_cst_9_apply, i1, i2, i3, i4]
  rfl

/-- The reference's sum of its matrix of distances is zero plus the sum of all pairwise distances. -/
theorem sum_eq (x : (⟨S8192x256, .f32⟩ : BufTy).Contents (Elt Ideal)) (i : S_.Idx) :
    val_main_v33 (F := Ideal) x i = w0 + total (val_main_v10 (F := Ideal) x) (val_main_v15 (F := Ideal) x) := by
  rw [val_main_v33_apply, sum_idx2]
  exact congrArg (w0 + ·) (Finset.sum_congr rfl fun a _ => Finset.sum_congr rfl fun b _ => entry_eq x a b)

/-- The reference's result. -/
theorem result_eq (x : (⟨S8192x256, .f32⟩ : BufTy).Contents (Elt Ideal)) :
    val_main_v37 (F := Ideal) x = fun i => finish (val_main_v13 (F := Ideal) x i)
      (w0 + total (val_main_v10 (F := Ideal) x) (val_main_v15 (F := Ideal) x)) := by
  funext i
  rw [val_main_v37_apply, val_main_v35_apply, val_main_v36_apply, val_main_v34_apply, sum_eq]
  rfl

end Cert.ReferenceIdeal.RefValue

end
-- ==== Proof.lean ====
/-
  Both programs compute, from an 8192 × 256 matrix of finite numbers, the same extended real.

  Each first divides every row by its norm plus a small constant, subtracts from every column its mean, and takes
  of the centred matrix `C` the mean square `v` and the squared norm `Q a` of each row: the same operations on the
  same words, in the same order, in both. Each then needs the sum, over all pairs of rows `(a, b)`, of the distance
  `√max(Q a + Q b - 2·⟨C a, C b⟩, 0)` (zero where the clamped value is not positive), and ends with
  `1 / v + log (sum / 2^26)`.

  The reference forms the 8192 × 8192 matrix of distances in one piece and sums it. The kernel never forms it: it
  visits the matrix in 16 × 16 tiles of 512 × 512 pairs, computes at each visit that tile's sum from two row blocks of
  `C` and the matching squared norms, and adds it to a running total that it sets to zero at the first visit and
  writes back after the last. A change of float format is the identity on extended reals, a matrix product into a
  zero accumulator is the sum of products, and addition of extended reals is commutative and associative, so the
  tiles' sums add up to the whole sum whatever the order of the visits. No finiteness is used: the two sides are the
  same sums of the same terms.
-/
import proofs.«179059_j78108275245360_1_alg».proof.Defs
import proofs.«179059_j78108275245360_1_alg».proof.Proof.Gen.Kernel
import proofs.«179059_j78108275245360_1_alg».proof.Proof.Gen.Kernel.Skeleton
import proofs.«179059_j78108275245360_1_alg».proof.Proof.Gen.Kernel.Launch
import proofs.«179059_j78108275245360_1_alg».proof.Proof.Gen.Kernel.Points
import proofs.«179059_j78108275245360_1_alg».proof.Proof.Gen.Kernel.Frame
import proofs.«179059_j78108275245360_1_alg».proof.Proof.Gen.KernelIdeal
import proofs.«179059_j78108275245360_1_alg».proof.Proof.Gen.KernelIdeal.Skeleton
import proofs.«179059_j78108275245360_1_alg».proof.Proof.Gen.KernelIdeal.Launch
import proofs.«179059_j78108275245360_1_alg».proof.Proof.Gen.KernelIdeal.Points
import proofs.«179059_j78108275245360_1_alg».proof.Proof.Gen.KernelIdeal.Frame
import proofs.«179059_j78108275245360_1_alg».proof.Proof.Gen.ReferenceIdeal
import proofs.«179059_j78108275245360_1_alg».proof.Proof.Gen.Pre_finite_inputs
import proofs.«179059_j78108275245360_1_alg».proof.Proof.Gen.ReferenceIdeal.Run
import proofs.«179059_j78108275245360_1_alg».proof.Proof.Gen.ReferenceIdeal.Read
import proofs.«179059_j78108275245360_1_alg».proof.Proof.KernelRun
import proofs.«179059_j78108275245360_1_alg».proof.Proof.RefTotal
import Idealize.ShloMosaic.Adequacy
import Idealize.ShloMosaic.Init

noncomputable section

namespace Cert.Proof

open Idealize.ShloMosaic Idealize.SL.Sem

/-- The kernel's program as printed runs to the end and leaves its argument alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On arguments that agree the two programs end at `1 / v + log ((0 + sum of all pairwise distances) / 2^26)`: the
    kernel's running total over the tiles and the reference's sum of the whole matrix are the same sum. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq, hagree c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
